-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_arg6 : FVec F S256 .f32) (main_arg7 : FVec F S256x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x128 : Shape := ⟨2, ![640000, 128]⟩
abbrev S128x256 : Shape := ⟨2, ![128, 256]⟩
abbrev S1x256 : Shape := ⟨2, ![1, 256]⟩
abbrev S100000x256 : Shape := ⟨2, ![100000, 256]⟩
abbrev S2000x128 : Shape := ⟨2, ![2000, 128]⟩
abbrev S2000x1 : Shape := ⟨2, ![2000, 1]⟩
abbrev S2000x256 : Shape := ⟨2, ![2000, 256]⟩
abbrev S640000x256 : Shape := ⟨2, ![640000, 256]⟩

abbrev nBuf : Space → Nat
  | .hbm => 59
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .f32⟩
  | .hbm, ⟨35, _⟩ => ⟨S100000x128, .f32⟩
  | .hbm, ⟨36, _⟩ => ⟨S640000x1, .i32⟩
  | .hbm, ⟨37, _⟩ => ⟨S100000x128, .f32⟩
  | .hbm, ⟨38, _⟩ => ⟨S128x256, .f32⟩
  | .hbm, ⟨39, _⟩ => ⟨S128x256, .f32⟩
  | .hbm, ⟨40, _⟩ => ⟨S1x256, .f32⟩
  | .hbm, ⟨41, _⟩ => ⟨S100000x256, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x256, .f32⟩
  | .hbm, ⟨51, _⟩ => ⟨S_, .f32⟩
  | .hbm, ⟨52, _⟩ => ⟨S100000x256, .f32⟩
  | .hbm, ⟨53, _⟩ => ⟨S640000x1, .i32⟩
  | .hbm, ⟨54, _⟩ => ⟨S100000x256, .f32⟩
  | .hbm, ⟨55, _⟩ => ⟨S256x256, .f32⟩
  | .hbm, ⟨56, _⟩ => ⟨S256x256, .f32⟩
  | .hbm, ⟨57, _⟩ => ⟨S1x256, .f32⟩
  | .hbm, ⟨58, _⟩ => ⟨S100000x256, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x1, .f32⟩
  | .local _ .vmem, ⟨8, _⟩ => ⟨S2000x1, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256x256, .f32⟩
  | .local _ .vmem, ⟨16, _⟩ => ⟨S256x256, .f32⟩
  | .local _ .vmem, ⟨17, _⟩ => ⟨S1x256, .f32⟩
  | .local _ .vmem, ⟨18, _⟩ => ⟨S2000x1, .f32⟩
  | .local _ .vmem, ⟨19, _⟩ => ⟨S2000x1, .f32⟩
  | .local _ .vmem, ⟨20, _⟩ => ⟨S2000x256, .f32⟩
  | .local _ .vmem, ⟨21, _⟩ => ⟨S2000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  shapeCasts_S100000_S100000x1 : S100000.ShapeCasts S100000x1
  bcast_S_S100000x128 : S_.BroadcastsInDim S100000x128 (![] : Fin 0 → Fin S100000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  transposes_S256x256_S256x256_1_0 : S256x256.Transposes [1, 0] S256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S2000x128_S128x256_S2000x256_1_0_0_1_n_n_wf : DotDims.WF S2000x128 S128x256 S2000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S100000x1.size a
  hwx0_5 : ∀ i : grid0.Coords, EltTy.bits .f32 = 32 ∨ (Rect.block (s := S100000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S100000x1.size a
  hwx1_5 : ∀ i : grid1.Coords, EltTy.bits .f32 = 32 ∨ (Rect.block (s := S100000x1) S2000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S100000x256.size a
  hwx1_6 : ∀ i : grid1.Coords, EltTy.bits .f32 = 32 ∨ (Rect.block (s := S100000x256) S2000x256.size (cc1_transform_6 i) (hinb1_6 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v40) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S128x256 : Shape := ⟨2, ![128, 256]⟩
abbrev S100000x256 : Shape := ⟨2, ![100000, 256]⟩
abbrev S1x256 : Shape := ⟨2, ![1, 256]⟩
abbrev S640000x256 : Shape := ⟨2, ![640000, 256]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x256, .f32⟩
  | .hbm, ⟨38, _⟩ => ⟨S100000x256, .f32⟩
  | .hbm, ⟨39, _⟩ => ⟨S1x256, .f32⟩
  | .hbm, ⟨40, _⟩ => ⟨S100000x256, .f32⟩
  | .hbm, ⟨41, _⟩ => ⟨S100000x256, .f32⟩
  | .hbm, ⟨42, _⟩ => ⟨S128x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000x256, .f32⟩
  | .hbm, ⟨47, _⟩ => ⟨S100000x256, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x256, .f32⟩
  | .hbm, ⟨57, _⟩ => ⟨S_, .f32⟩
  | .hbm, ⟨58, _⟩ => ⟨S100000x256, .f32⟩
  | .hbm, ⟨59, _⟩ => ⟨S640000x1, .i32⟩
  | .hbm, ⟨60, _⟩ => ⟨S100000x256, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S100000, .f32⟩
  | .hbm, ⟨65, _⟩ => ⟨S640000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x256, .f32⟩
  | .hbm, ⟨72, _⟩ => ⟨S100000x256, .f32⟩
  | .hbm, ⟨73, _⟩ => ⟨S256x256, .f32⟩
  | .hbm, ⟨74, _⟩ => ⟨S100000x256, .f32⟩
  | .hbm, ⟨75, _⟩ => ⟨S1x256, .f32⟩
  | .hbm, ⟨76, _⟩ => ⟨S100000x256, .f32⟩
  | .hbm, ⟨77, _⟩ => ⟨S100000x256, .f32⟩
  | .hbm, ⟨78, _⟩ => ⟨S256x256, .f32⟩
  | .hbm, ⟨79, _⟩ => ⟨S100000x256, .f32⟩
  | .hbm, ⟨80, _⟩ => ⟨S100000x256, .f32⟩
  | .hbm, ⟨81, _⟩ => ⟨S_, .f32⟩
  | .hbm, ⟨82, _⟩ => ⟨S100000x256, .f32⟩
  | .hbm, ⟨83, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S256x256_S256x256_1_0 : S256x256.Transposes [1, 0] S256x256
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x256_S100000x256_1_0_0_1_n_n_wf : DotDims.WF S100000x128 S128x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x256_S100000x256_1_0_0_1_n_n_wf : DotDims.WF S100000x256 S256x256 S100000x256 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.KernelRun.lean ====
/-
  The idealized kernel program's run with its result named.

  The program is two launches of the layer kernel among stretches of host operations. Every weakly fair
  execution ends with each unscoped buffer at the contents the last boundary of that chain leaves; read at the
  result buffer this is what the second launch's write-backs leave in its output array, and read at each
  argument it is the argument as launched.
-/
import proofs.«133361_j22548578304459_2_alg».proof.Proof.Gen.KernelIdeal.Frame

set_option maxRecDepth 16384

noncomputable section

namespace Cert.Sage.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the contents the chain of
    boundaries ends at and the arguments as launched. -/
theorem run : θ_run defs (onTc (τ := τ) (main (F := F))) ⟨m, fun _ => 0, ρ⟩ (fun r => ∀ c : Dev nD,
      r.2.mem ((c.tc : Thread nD τ).loc main_v40) = W4 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v40 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.KernelRun

end
-- ==== Proof.KernelHost0.lean ====
/-
  What the first launch finds in its operands' arrays.

  Before the first launch the host has split the edge list into sources and destinations, counted each node's
  incoming edges and clamped the count at one, taken its reciprocal as a column, gathered the source rows of the
  node features and summed them into their destinations' rows, transposed the two weight matrices and laid
  the bias out as a row. The summed features, the clamped count and the transposes are the same operations of
  the same arguments as the reference's own; the node features are the argument itself.
-/
import proofs.«133361_j22548578304459_2_alg».proof.Proof.Gen.KernelIdeal.Frame
import proofs.«133361_j22548578304459_2_alg».proof.Proof.Gen.ReferenceIdeal.Read

set_option maxRecDepth 16384

noncomputable section

namespace Cert.Sage.KernelHost0

open Cert.KernelIdeal Cert.KernelIdeal.Gen
open Cert.ReferenceIdeal.Read
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

set_option maxHeartbeats 4000000 in
/-- The summed neighbour features. -/
theorem V1_agg (c : Dev nD) : (V1 m ρ c main_v22 : S100000x128.Idx → EReal)
    = val_main_v13 (F := Ideal) (m ((c : Thread nD τ).loc main_arg0)) (m ((c : Thread nD τ).loc main_arg1)) := by
  show StableHlo.after hostOps0 (W0 m ρ c) (Proc.devRef .tc main_v22) = _
  after_results_simp <;> rfl

set_option maxHeartbeats 4000000 in
/-- The node features are the first argument. -/
theorem V1_x (c : Dev nD) : V1 m ρ c main_arg0 = (m ((c : Thread nD τ).loc main_arg0)) := by
  show StableHlo.after hostOps0 (W0 m ρ c) (Proc.devRef .tc main_arg0) = _
  after_results_simp <;> rfl

set_option maxHeartbeats 4000000 in
/-- The transposed left weights. -/
theorem V1_wl (c : Dev nD) : (V1 m ρ c main_v23 : S128x256.Idx → EReal) = val_main_v23 (F := Ideal) (m ((c : Thread nD τ).loc main_arg2)) := by
  show StableHlo.after hostOps0 (W0 m ρ c) (Proc.devRef .tc main_v23) = _
  after_results_simp <;> rfl

set_option maxHeartbeats 4000000 in
/-- The transposed right weights. -/
theorem V1_wr (c : Dev nD) : (V1 m ρ c main_v24 : S128x256.Idx → EReal) = val_main_v28 (F := Ideal) (m ((c : Thread nD τ).loc main_arg4)) := by
  show StableHlo.after hostOps0 (W0 m ρ c) (Proc.devRef .tc main_v24) = _
  after_results_simp <;> rfl

set_option maxHeartbeats 4000000 in
/-- The bias laid out as a row. -/
theorem V1_b (c : Dev nD) : (V1 m ρ c main_v25 : S1x256.Idx → EReal)
    = shapeCast S1x256 ((m ((c : Thread nD τ).loc main_arg3)) : S256.Idx → EReal) shapeCasts_S256_S1x256 := by
  show StableHlo.after hostOps0 (W0 m ρ c) (Proc.devRef .tc main_v25) = _
  after_results_simp <;> rfl

set_option maxHeartbeats 4000000 in
/-- The reciprocal of the clamped neighbour count, as a column. -/
theorem V1_inv (c : Dev nD) : (V1 m ρ c main_v12 : S100000x1.Idx → EReal)
    = shapeCast S100000x1 (Host.divf (F := Ideal) (broadcastInDim S100000 ![] bcast_S_S100000 (constant (F := Ideal) S_ .f32 0x3F800000#32))
        (val_main_v19 (F := Ideal) (m ((c : Thread nD τ).loc main_arg1)))) shapeCasts_S100000_S100000x1 := by
  show StableHlo.after hostOps0 (W0 m ρ c) (Proc.devRef .tc main_v12) = _
  after_results_simp <;> rfl

set_option maxHeartbeats 4000000 in
/-- The edges' source nodes … -/
theorem V1_src (c : Dev nD) : (V1 m ρ c main_v1 : S640000.Idx → BitVec 32) = val_main_v1 (F := Ideal) (m ((c : Thread nD τ).loc main_arg1)) := by
  show StableHlo.after hostOps0 (W0 m ρ c) (Proc.devRef .tc main_v1) = _
  after_results_simp <;> rfl

set_option maxHeartbeats 4000000 in
/-- … and destination nodes. -/
theorem V1_dst (c : Dev nD) : (V1 m ρ c main_v3 : S640000.Idx → BitVec 32) = val_main_v3 (F := Ideal) (m ((c : Thread nD τ).loc main_arg1)) := by
  show StableHlo.after hostOps0 (W0 m ρ c) (Proc.devRef .tc main_v3) = _
  after_results_simp <;> rfl

set_option maxHeartbeats 4000000 in
/-- The second layer's weights and bias are untouched by the first stretch of host operations. -/
theorem V1_arg5 (c : Dev nD) : V1 m ρ c main_arg5 = (m ((c : Thread nD τ).loc main_arg5)) := by
  show StableHlo.after hostOps0 (W0 m ρ c) (Proc.devRef .tc main_arg5) = _
  after_results_simp <;> rfl
set_option maxHeartbeats 4000000 in
theorem V1_arg6 (c : Dev nD) : V1 m ρ c main_arg6 = (m ((c : Thread nD τ).loc main_arg6)) := by
  show StableHlo.after hostOps0 (W0 m ρ c) (Proc.devRef .tc main_arg6) = _
  after_results_simp <;> rfl
set_option maxHeartbeats 4000000 in
theorem V1_arg7 (c : Dev nD) : V1 m ρ c main_arg7 = (m ((c : Thread nD τ).loc main_arg7)) := by
  show StableHlo.after hostOps0 (W0 m ρ c) (Proc.devRef .tc main_arg7) = _
  after_results_simp <;> rfl

end Cert.Sage.KernelHost0

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.LibKeepdims.lean ====
/-
  A reduction over the last axis kept as a unit axis, read at an index.

  A vector of `a` numbers viewed as an `a × 1` column holds, at (i, u), the vector's entry i, whatever the unit
  coordinate u; and an `a × 1` column spread over `b` columns holds, at (p, c), the column's entry (p, 0): every
  entry of row p is that row's one number. Together they read the common pattern "sum each row, keep the axis,
  combine with the matrix again" at an entry (p, c) as the row sum of row p.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the one entry of the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LayerSpec.lean ====
/-
  One layer of the network, entry by entry, in the kernel's arrangement of its operands.

  A layer takes the summed neighbour features `agg` and the node features `x` (N × D each), the two weight
  matrices as D × H arrays, the bias as a 1 × H row and one scale per node as an N × 1 column, and gives at node
  `p` and output feature `q`
  `max (s(p,0) · ∑ₖ agg(p,k) wl(k,q) + ∑ₖ x(p,k) wr(k,q) + b(0,q)) 0`.
  The entry depends only on row `p` of `agg`, `x` and `s`: a block of rows of the result is the layer of the same
  block of rows of those three operands.
-/
import Idealize.ShloMosaic.PureOps.Ideal
import Idealize.ShloMosaic.Lib.ValueIdx

noncomputable section

namespace Cert.Sage

open Idealize.ShloMosaic Idealize.ShloMosaic.ValueIdx

/-- Entry (p, q) of a layer. -/
def rowLayer {N D H : ℕ} (agg x : (⟨2, ![N, D]⟩ : Shape).Idx → EReal) (wl wr : (⟨2, ![D, H]⟩ : Shape).Idx → EReal)
    (b : (⟨2, ![1, H]⟩ : Shape).Idx → EReal) (s : (⟨2, ![N, 1]⟩ : Shape).Idx → EReal) (p : Fin N) (q : Fin H) : EReal :=
  max (s (ix2 p (0 : Fin 1)) * (∑ k : Fin D, agg (ix2 p k) * wl (ix2 k q))
    + (∑ k : Fin D, x (ix2 p k) * wr (ix2 k q)) + b (ix2 (0 : Fin 1) q)) (Ideal.ofBits .f32 0x00000000#32)

/-- A layer's entry at row `p` is the entry at row `p'` of a layer whose row `p'` of features and scale is this
    one's row `p`. -/
theorem rowLayer_congr {N N' D H : ℕ} (agg x : (⟨2, ![N, D]⟩ : Shape).Idx → EReal) (agg' x' : (⟨2, ![N', D]⟩ : Shape).Idx → EReal)
    (wl wr : (⟨2, ![D, H]⟩ : Shape).Idx → EReal) (b : (⟨2, ![1, H]⟩ : Shape).Idx → EReal)
    (s : (⟨2, ![N, 1]⟩ : Shape).Idx → EReal) (s' : (⟨2, ![N', 1]⟩ : Shape).Idx → EReal) (p : Fin N) (p' : Fin N') (q : Fin H)
    (ha : ∀ k : Fin D, agg (ix2 p k) = agg' (ix2 p' k)) (hx : ∀ k : Fin D, x (ix2 p k) = x' (ix2 p' k))
    (hs : s (ix2 p (0 : Fin 1)) = s' (ix2 p' (0 : Fin 1))) :
    rowLayer agg x wl wr b s p q = rowLayer agg' x' wl wr b s' p' q := by
  unfold rowLayer
  rw [hs, Finset.sum_congr rfl fun k _ => congrArg (· * wl (ix2 k q)) (ha k),
    Finset.sum_congr rfl fun k _ => congrArg (· * wr (ix2 k q)) (hx k)]

end Cert.Sage

end
-- ==== Proof.Block0.lean ====
/-
  One row block of a layer: what the kernel body computes from the blocks it is handed, entry by entry.

  The body receives a block of 2000 rows of the summed neighbour features `a` and of the node features `x`
  (each 2000 × 128), the two weight matrices `wl`, `wr` (128 × 256, already transposed), the bias as one row
  `b` (1 × 256) and the reciprocal neighbour counts as one column `s` (2000 × 1). Over the extended reals the
  roundings to the narrower format are the identity and each matrix product into the zero accumulator is the
  plain sum over the contracted axis, so entry (r, q) of the stored block is
  `max (s(r,0) · ∑ₖ a(r,k) wl(k,q) + ∑ₖ x(r,k) wr(k,q) + b(0,q)) 0`.
-/
import proofs.«133361_j22548578304459_2_alg».proof.Proof.Gen.KernelIdeal.Skeleton
import proofs.«133361_j22548578304459_2_alg».proof.Proof.LibMatmul
import proofs.«133361_j22548578304459_2_alg».proof.Proof.LibKeepdims
import proofs.«133361_j22548578304459_2_alg».proof.Proof.LayerSpec
import Idealize.ShloMosaic.Lib.ValueLayout
import Idealize.ShloMosaic.Lib.Pipeline.Value
import Idealize.ShloMosaic.PureOps.Ideal.Laws

noncomputable section

namespace Cert.Sage.Block0

open Idealize.ShloMosaic Idealize.ShloMosaic.ValueIdx Cert.KernelIdeal Cert.KernelIdeal.Gen

/-- The block product's left operand is read at (row, contraction index) … -/
theorem lhs_0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide),
    dif_pos (show (0 : Fin S2000x128.rank) ∈ dot_S2000x128_S128x256_S2000x256_1_0_0_1_n_n.lhsNonContracting by decide)]
  rfl
theorem lhs_1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
/-- … and its right operand at (contraction index, column). -/
theorem rhs_0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide),
    dif_pos (show (1 : Fin S128x256.rank) ∈ dot_S2000x128_S128x256_S2000x256_1_0_0_1_n_n.rhsNonContracting by decide)]
  rfl

/-- The block's matrix product at entry (r, q) is the sum over the 128 contracted columns. -/
theorem mm (l : FVec Ideal S2000x128 .bf16) (w : FVec Ideal S128x256 .bf16) (r : Fin 2000) (q : Fin 256) :
    matmul dot_S2000x128_S128x256_S2000x256_1_0_0_1_n_n none l w (constant (F := Ideal) S2000x256 .f32 0x00000000#32) (ix2 r q)
      = ∑ k : Fin 128, l (ix2 r k) * w (ix2 k q) :=
  Cert.LibMatmul.matmul_zero_ix2 dot_S2000x128_S128x256_S2000x256_1_0_0_1_n_n rfl rfl lhs_0 lhs_1 rhs_0 rhs_1 none l w r q

/-- Entry (r, q) of the stored block. -/
theorem pay_apply (a x : Vec Ideal S2000x128 .f32) (wl wr : Vec Ideal S128x256 .f32) (s : Vec Ideal S2000x1 .f32)
    (b : Vec Ideal S1x256 .f32) (r : Fin 2000) (q : Fin 256) :
    k0_pay1 (F := Ideal) a x wl wr s b (ix2 r q)
      = max (s (ix2 r (0 : Fin 1)) * (∑ k : Fin 128, a (ix2 r k) * wl (ix2 k q))
          + (∑ k : Fin 128, x (ix2 r k) * wr (ix2 k q)) + b (ix2 (0 : Fin 1) q)) (Ideal.ofBits .f32 0x00000000#32) := by
  unfold k0_pay1
  simp only [shapeCast_self]
  show max (broadcastTo S2000x256 s broadcasts_S2000x1_S2000x256 (ix2 r q)
        * matmul dot_S2000x128_S128x256_S2000x256_1_0_0_1_n_n none (truncf .bf16 a bitsLt_bf16_f32) (truncf .bf16 wl bitsLt_bf16_f32) (constant (F := Ideal) S2000x256 .f32 0x00000000#32) (ix2 r q)
      + matmul dot_S2000x128_S128x256_S2000x256_1_0_0_1_n_n none (truncf .bf16 x bitsLt_bf16_f32) (truncf .bf16 wr bitsLt_bf16_f32) (constant (F := Ideal) S2000x256 .f32 0x00000000#32) (ix2 r q)
      + broadcastTo S2000x256 b broadcasts_S1x256_S2000x256 (ix2 r q)) (Ideal.ofBits .f32 0x00000000#32) = _
  rw [mm, mm, Cert.LibKeepdims.broadcastTo_a1_ab_apply, broadcastTo_1b_ab_apply]
  rfl

/-- The stored block is the layer of the blocks the body was handed. -/
theorem pay_eq_rowLayer (a x : Vec Ideal S2000x128 .f32) (wl wr : Vec Ideal S128x256 .f32) (s : Vec Ideal S2000x1 .f32)
    (b : Vec Ideal S1x256 .f32) (r : Fin 2000) (q : Fin 256) :
    k0_pay1 (F := Ideal) a x wl wr s b (ix2 r q) = rowLayer (N := 2000) (D := 128) (H := 256) a x wl wr b s r q :=
  pay_apply a x wl wr s b r q

end Cert.Sage.Block0

end
-- ==== Proof.Layer0.lean ====
/-
  The first launch's output array as one function of the arrays the launch finds.

  The grid has 50 points; point `t` is handed rows `2000 t … 2000 t + 1999` of the summed neighbour features, of
  the node features and of the scale column, and the whole of the two weight matrices and of the bias row, and
  writes back rows `2000 t … 2000 t + 1999` of the output. A layer's entry depends only on its own row of the
  row-blocked operands, so what point `t` writes back is block `t` of the layer of the whole arrays; the 50
  blocks tile the 100000 rows, so the output array ends as that layer.
-/
import proofs.«133361_j22548578304459_2_alg».proof.Proof.Gen.KernelIdeal.Frame
import proofs.«133361_j22548578304459_2_alg».proof.Proof.Block0
import proofs.«133361_j22548578304459_2_alg».proof.Proof.LayerSpec
import Idealize.ShloMosaic.Lib.Pipeline.Value

set_option maxRecDepth 16384

noncomputable section

namespace Cert.Sage.Layer0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the launch finds, at every node and output feature. -/
def G (c : Dev nD) : S100000x256.Idx → EReal := fun i =>
  rowLayer (N := 100000) (D := 128) (H := 256) (V c main_v22) (V c main_arg0) (V c main_v23) (V c main_v24)
    (V c main_v25) (V c main_v12) (i 0) (i 1)

/-- The printed index maps over the grid: the row-blocked windows sit at block row `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Row `r` of point `t`'s block of the summed neighbour features is row `2000 t + r` of the array. -/
theorem blk_agg (c : Dev nD) (t : Fin cfg0.N) (r : Fin 2000) (k : Fin 128) (p : Fin 100000) (hp : p.val = t.val * 2000 + r.val) :
    (iblk0 V c 0 t : Vec Ideal S2000x128 .f32) (ix2 r k) = (V c main_v22 : S100000x128.Idx → EReal) (ix2 p k) := by
  obtain ⟨e0, e1, -⟩ := idx_facts t
  unfold iblk0
  rw [View.read_apply]
  show (V c main_v22 : S100000x128.Idx → EReal) (((cfg0.win 0).blk t).view.emb (ix2 r k)) = _
  refine congrArg _ (funext fun a => Fin.ext ?_)
  match a with
  | ⟨0, _⟩ => show win0_0.index t (0 : Fin 2) * 2000 + 1 * r.val = p.val; rw [e0, hp]; omega
  | ⟨1, _⟩ => show win0_0.index t (1 : Fin 2) * 128 + 1 * k.val = k.val; rw [e1]; omega

/-- The same for the node features … -/
theorem blk_x (c : Dev nD) (t : Fin cfg0.N) (r : Fin 2000) (k : Fin 128) (p : Fin 100000) (hp : p.val = t.val * 2000 + r.val) :
    (iblk0 V c 1 t : Vec Ideal S2000x128 .f32) (ix2 r k) = (V c main_arg0 : S100000x128.Idx → EReal) (ix2 p k) := by
  obtain ⟨-, -, e0, e1, -⟩ := idx_facts t
  unfold iblk0
  rw [View.read_apply]
  show (V c main_arg0 : S100000x128.Idx → EReal) (((cfg0.win 1).blk t).view.emb (ix2 r k)) = _
  refine congrArg _ (funext fun a => Fin.ext ?_)
  match a with
  | ⟨0, _⟩ => show win0_1.index t (0 : Fin 2) * 2000 + 1 * r.val = p.val; rw [e0, hp]; omega
  | ⟨1, _⟩ => show win0_1.index t (1 : Fin 2) * 128 + 1 * k.val = k.val; rw [e1]; omega

/-- … and for the scale column. -/
theorem blk_s (c : Dev nD) (t : Fin cfg0.N) (r : Fin 2000) (p : Fin 100000) (hp : p.val = t.val * 2000 + r.val) :
    (iblk0 V c 5 t : Vec Ideal S2000x1 .f32) (ix2 r (0 : Fin 1)) = (V c main_v12 : S100000x1.Idx → EReal) (ix2 p (0 : Fin 1)) := by
  obtain ⟨-, -, -, -, -, -, -, -, -, -, e0, e1, -⟩ := idx_facts t
  unfold iblk0
  rw [View.read_apply]
  show (V c main_v12 : S100000x1.Idx → EReal) (((cfg0.win 5).blk t).view.emb (ix2 r (0 : Fin 1))) = _
  refine congrArg _ (funext fun a => Fin.ext ?_)
  match a with
  | ⟨0, _⟩ => show win0_5.index t (0 : Fin 2) * 2000 + 1 * r.val = p.val; rw [e0, hp]; omega
  | ⟨1, _⟩ => show win0_5.index t (1 : Fin 2) * 1 + 1 * 0 = 0; rw [e1]

/-- Every point is handed the whole left weight matrix, … -/
theorem blk_wl (c : Dev nD) (t : Fin cfg0.N) : (iblk0 V c 2 t : Vec Ideal S128x256 .f32) = (V c main_v23 : S128x256.Idx → EReal) := by
  obtain ⟨-, -, -, -, e0, e1, -⟩ := idx_facts t
  unfold iblk0
  funext j
  rw [View.read_apply]
  show (V c main_v23 : S128x256.Idx → EReal) (((cfg0.win 2).blk t).view.emb j) = (V c main_v23 : S128x256.Idx → EReal) j
  refine congrArg _ (funext fun a => Fin.ext ?_)
  match a with
  | ⟨0, _⟩ => show win0_2.index t (0 : Fin 2) * 128 + 1 * (j 0).val = (j 0).val; rw [e0]; omega
  | ⟨1, _⟩ => show win0_2.index t (1 : Fin 2) * 256 + 1 * (j 1).val = (j 1).val; rw [e1]; omega

/-- … the whole right weight matrix … -/
theorem blk_wr (c : Dev nD) (t : Fin cfg0.N) : (iblk0 V c 3 t : Vec Ideal S128x256 .f32) = (V c main_v24 : S128x256.Idx → EReal) := by
  obtain ⟨-, -, -, -, -, -, e0, e1, -⟩ := idx_facts t
  unfold iblk0
  funext j
  rw [View.read_apply]
  show (V c main_v24 : S128x256.Idx → EReal) (((cfg0.win 3).blk t).view.emb j) = (V c main_v24 : S128x256.Idx → EReal) j
  refine congrArg _ (funext fun a => Fin.ext ?_)
  match a with
  | ⟨0, _⟩ => show win0_3.index t (0 : Fin 2) * 128 + 1 * (j 0).val = (j 0).val; rw [e0]; omega
  | ⟨1, _⟩ => show win0_3.index t (1 : Fin 2) * 256 + 1 * (j 1).val = (j 1).val; rw [e1]; omega

/-- … and the whole bias row. -/
theorem blk_b (c : Dev nD) (t : Fin cfg0.N) : (iblk0 V c 4 t : Vec Ideal S1x256 .f32) = (V c main_v25 : S1x256.Idx → EReal) := by
  obtain ⟨-, -, -, -, -, -, -, -, e0, e1, -⟩ := idx_facts t
  unfold iblk0
  funext j
  rw [View.read_apply]
  show (V c main_v25 : S1x256.Idx → EReal) (((cfg0.win 4).blk t).view.emb j) = (V c main_v25 : S1x256.Idx → EReal) j
  refine congrArg _ (funext fun a => Fin.ext ?_)
  match a with
  | ⟨0, _⟩ => show win0_4.index t (0 : Fin 2) * 1 + 1 * (j 0).val = (j 0).val; rw [e0]; omega
  | ⟨1, _⟩ => show win0_4.index t (1 : Fin 2) * 256 + 1 * (j 1).val = (j 1).val; rw [e1]; omega

/-- What point `t` writes back is block `t` of the layer of the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x256) hz,
    View.ld_unit_zero (S := S2000x1) hz, View.ld_unit_zero (S := S1x256) hz]
  obtain ⟨-, -, -, -, -, -, -, -, -, -, -, -, e0, e1⟩ := idx_facts t
  have hN : cfg0.N = 50 := N_0
  funext j
  have hj0 : (j 0).val < 2000 := (j 0).isLt
  have hj1 : (j 1).val < 256 := (j 1).isLt
  have ht : t.val < 50 := hN ▸ t.isLt
  have hj : (j : S2000x256.Idx) = ix2 (⟨(j 0).val, hj0⟩ : Fin 2000) (⟨(j 1).val, hj1⟩ : Fin 256) :=
    funext fun a => match a with
      | ⟨0, _⟩ => rfl
      | ⟨1, _⟩ => rfl
  have he : (((cfg0.win 6).blk t).view.emb j : S100000x256.Idx)
      = ix2 (⟨t.val * 2000 + (j 0).val, by omega⟩ : Fin 100000) (⟨(j 1).val, hj1⟩ : Fin 256) :=
    funext fun a => Fin.ext (by
      match a with
      | ⟨0, _⟩ => show win0_6.index t (0 : Fin 2) * 2000 + 1 * (j 0).val = t.val * 2000 + (j 0).val; rw [e0]; omega
      | ⟨1, _⟩ => show win0_6.index t (1 : Fin 2) * 256 + 1 * (j 1).val = (j 1).val; rw [e1]; omega)
  show k0_pay1 (F := Ideal) (iblk0 V c 0 t) (iblk0 V c 1 t) (iblk0 V c 2 t) (iblk0 V c 3 t) (iblk0 V c 5 t) (iblk0 V c 4 t) (j : S2000x256.Idx)
    = G V c (((cfg0.win 6).blk t).view.emb j)
  refine (congrArg (k0_pay1 (F := Ideal) (iblk0 V c 0 t) (iblk0 V c 1 t) (iblk0 V c 2 t) (iblk0 V c 3 t) (iblk0 V c 5 t) (iblk0 V c 4 t)) hj).trans
    (Eq.trans ?_ (congrArg (G V c) he).symm)
  refine (Cert.Sage.Block0.pay_eq_rowLayer _ _ _ _ _ _ _ _).trans ?_
  rw [blk_wl, blk_wr, blk_b]
  exact rowLayer_congr _ _ _ _ _ _ _ _ _ _ _ _
    (fun k => blk_agg V c t _ k _ rfl) (fun k => blk_x V c t _ k _ rfl) (blk_s V c t _ _ rfl)

/-- An index of the output array is in point `t`'s block iff each coordinate is in the block's range. -/
theorem mem_blk (t : Fin cfg0.N) (i : S100000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v26).slice (win0_6.rect t)).set ↔ _
  rw [View.set_slice_whole, Rect.mem_set_unit]
  exact Iff.rfl

/-- Row `p` of the output lies in the block of point `p / 2000`. -/
theorem cover (i : S100000x256.Idx) : ∃ t : Fin cfg0.N, (cfg0.win 6).flush t = true ∧ i ∈ ((cfg0.win 6).blk t).view.set := by
  have hN : cfg0.N = 50 := N_0
  have hi0 : (i 0).val < 100000 := (i 0).isLt
  have hi1 : (i 1).val < 256 := (i 1).isLt
  have ht : (i 0).val / 2000 < cfg0.N := by rw [hN]; omega
  obtain ⟨-, -, -, -, -, -, -, -, -, -, -, -, e0, e1⟩ := idx_facts ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 256 ≤ (i 1).val ∧ (i 1).val < win0_6.index ⟨(i 0).val / 2000, ht⟩ (1 : Fin 2) * 256 + 256
    rw [e1]; omega

/-- The output array after the launch is the layer of the arrays the launch found. -/
theorem final (c : Dev nD) : (dat0 V c).arrAt 6 cfg0.N = G V c :=
  (dat0 V c).arrAt_eq_of_cover 6 (G V c) (fun t _ => flushed_eq V c t) (cover)

end Cert.Sage.Layer0

end
-- ==== Proof.MeanLaw.lean ====
/-
  Dividing the summands of a weighted sum by a number at least one, or scaling the whole sum by that number's
  reciprocal.

  On the extended reals a number `d ≥ 1` is not zero, so the quotient `a / d` is the product `a · d⁻¹`, and
  `1 / d` is `d⁻¹`. The reciprocal `c = d⁻¹` is a number of `[0, 1]` (zero when `d = +∞`): it is neither negative
  nor `+∞`, and multiplication by such a number distributes over every sum of extended reals, whatever
  infinities the sum holds. Hence `(1 / d) · ∑ₖ aₖ wₖ = ∑ₖ (aₖ / d) wₖ` with no finiteness assumed of `a` or `w`:
  a mean taken before a matrix product is the matrix product of the sums scaled by the reciprocal count.
-/
import Idealize.ShloMosaic.PureOps.Ideal

namespace Cert.MeanLaw

open Idealize.ShloMosaic

/-- Zero is below one. -/
theorem zero_lt_one' : (0 : EReal) < 1 := by exact_mod_cast (zero_lt_one : (0 : ℝ) < 1)

/-- A number at least one is not zero. -/
theorem ne_zero_of_one_le {d : EReal} (hd : 1 ≤ d) : d ≠ 0 :=
  fun h => absurd (h ▸ hd) (not_le.mpr zero_lt_one')

/-- The quotient by a number at least one is the product with its reciprocal. -/
theorem div_eq_mul_inv {d : EReal} (hd : 1 ≤ d) (a : EReal) : Ideal.div a d = a * d⁻¹ := by
  rw [Ideal.div, if_neg (ne_zero_of_one_le hd)]

/-- One over a number at least one is its reciprocal. -/
theorem one_div_eq_inv {d : EReal} (hd : 1 ≤ d) : Ideal.div 1 d = d⁻¹ := by
  rw [div_eq_mul_inv hd, one_mul]

/-- The reciprocal of a number at least one is not negative. -/
theorem inv_nonneg {d : EReal} (hd : 1 ≤ d) : 0 ≤ d⁻¹ :=
  EReal.inv_nonneg_of_nonneg (le_trans zero_lt_one'.le hd)

/-- A number that is neither negative nor `+∞` moves into a finite sum of extended reals. -/
theorem mul_sum {ι : Type*} (s : Finset ι) {c : EReal} (h0 : 0 ≤ c) (ht : c ≠ ⊤) (f : ι → EReal) :
    c * ∑ i ∈ s, f i = ∑ i ∈ s, c * f i := by
  classical
  induction s using Finset.induction_on with
  | empty => simp
  | insert a s ha ih =>
    rw [Finset.sum_insert ha, Finset.sum_insert ha, EReal.left_distrib_of_nonneg_of_ne_top h0 ht, ih]

/-- Scaling a weighted sum by `1 / d` is dividing each summand's first factor by `d`, for `d ≥ 1`. -/
theorem one_div_mul_sum {K : ℕ} {d : EReal} (hd : 1 ≤ d) (a w : Fin K → EReal) :
    Ideal.div 1 d * ∑ k : Fin K, a k * w k = ∑ k : Fin K, Ideal.div (a k) d * w k := by
  rw [one_div_eq_inv hd, mul_sum _ (inv_nonneg hd) (EReal.inv_lt_top d).ne]
  refine Finset.sum_congr rfl fun k _ => ?_
  rw [div_eq_mul_inv hd, mul_comm (a k) d⁻¹, mul_assoc]

end Cert.MeanLaw
-- ==== Proof.LayerLaw.lean ====
/-
  A layer in the kernel's arrangement is the layer in the reference's arrangement.

  The reference divides the summed neighbour features of node `p` by the clamped neighbour count `d(p) ≥ 1`
  before the matrix product, adds the bias and then the node's own term:
  `max ((∑ₖ (agg(p,k) / d(p)) wl(q,k) + b(q)) + ∑ₖ x(p,k) wr(q,k)) 0`.
  The kernel takes the product of the undivided sums with the transposed weights, scales it by `1 / d(p)`, adds
  the node's own term and then the bias. The two agree on the extended reals: scaling by the reciprocal of a
  number at least one moves into the sum, and the two orders of the three summands are one sum.
-/
import proofs.«133361_j22548578304459_2_alg».proof.Proof.LayerSpec
import proofs.«133361_j22548578304459_2_alg».proof.Proof.MeanLaw

noncomputable section

namespace Cert.Sage

open Idealize.ShloMosaic Idealize.ShloMosaic.ValueIdx

/-- Entry (p, q): the kernel's arrangement, over transposed weights, the bias as a row and the scale `1 / d` as a
    column, is the reference's arrangement over the weights, the bias and the counts `d`, when `d(p) ≥ 1`. -/
theorem rowLayer_eq_ref {N D H : ℕ} (agg x : (⟨2, ![N, D]⟩ : Shape).Idx → EReal) (wlT wrT : (⟨2, ![D, H]⟩ : Shape).Idx → EReal)
    (b2 : (⟨2, ![1, H]⟩ : Shape).Idx → EReal) (s : (⟨2, ![N, 1]⟩ : Shape).Idx → EReal)
    (wl wr : (⟨2, ![H, D]⟩ : Shape).Idx → EReal) (b : (⟨1, ![H]⟩ : Shape).Idx → EReal) (d : (⟨1, ![N]⟩ : Shape).Idx → EReal)
    (p : Fin N) (q : Fin H)
    (hwl : ∀ k : Fin D, wlT (ix2 k q) = wl (ix2 q k)) (hwr : ∀ k : Fin D, wrT (ix2 k q) = wr (ix2 q k))
    (hb : b2 (ix2 (0 : Fin 1) q) = b (ix1 q)) (hs : s (ix2 p (0 : Fin 1)) = Ideal.div 1 (d (ix1 p)))
    (hd : 1 ≤ d (ix1 p)) :
    rowLayer agg x wlT wrT b2 s p q
      = max ((∑ k : Fin D, Ideal.div (agg (ix2 p k)) (d (ix1 p)) * wl (ix2 q k)) + b (ix1 q)
          + ∑ k : Fin D, x (ix2 p k) * wr (ix2 q k)) (Ideal.ofBits .f32 0x00000000#32) := by
  unfold rowLayer
  rw [hs, hb, Finset.sum_congr rfl fun k _ => congrArg (agg (ix2 p k) * ·) (hwl k),
    Finset.sum_congr rfl fun k _ => congrArg (x (ix2 p k) * ·) (hwr k),
    Cert.MeanLaw.one_div_mul_sum hd (fun k => agg (ix2 p k)) (fun k => wl (ix2 q k)), add_right_comm]

end Cert.Sage

end
-- ==== Proof.RefRead.lean ====
/-
  The reference's two layers read at an entry.

  Each layer of the reference, at node `p` and output feature `q`, is
  `max ((∑ₖ (agg(p,k) / d(p)) wl(q,k) + b(q)) + ∑ₖ h(p,k) wr(q,k)) 0`: the summed neighbour features `agg` divided
  row by row by the clamped neighbour count `d`, contracted with the rows of the left weights, the bias, and the
  node's own features `h` contracted with the rows of the right weights. The count is a maximum with one, so it
  is at least one at every node.
-/
import proofs.«133361_j22548578304459_2_alg».proof.Proof.Gen.ReferenceIdeal.Read
import Idealize.ShloMosaic.Lib.IdealHost

noncomputable section

namespace Cert.Sage.RefRead

open Cert.ReferenceIdeal Cert.ReferenceIdeal.Gen Cert.ReferenceIdeal.Read
open Idealize.ShloMosaic Idealize.ShloMosaic.ValueIdx

variable (x0 : (⟨S100000x128, .f32⟩ : BufTy).Contents (Elt Ideal)) (x1 : (⟨S2x640000, .i32⟩ : BufTy).Contents (Elt Ideal))
  (x2 : (⟨S256x128, .f32⟩ : BufTy).Contents (Elt Ideal)) (x3 : (⟨S256, .f32⟩ : BufTy).Contents (Elt Ideal))
  (x4 : (⟨S256x128, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))

/-- The clamped neighbour count is at least one at every node. -/
theorem one_le_count (p : Fin 100000) : 1 ≤ val_main_v19 (F := Ideal) x1 (ix1 p) := by
  rw [val_main_v19_apply, val_main_v18_apply, val_main_cst_3_apply]
  show 1 ≤ max _ (Ideal.ofBits .f32 0x3F800000#32)
  rw [Ideal.ofBits_one_f32]
  exact le_max_right _ _

/-- The second layer's count is the first layer's: the same operations of the same edge list. -/
theorem count2_eq : val_main_v47 (F := Ideal) x1 = val_main_v19 (F := Ideal) x1 := rfl

/-- Entry (p, q) of the first layer. -/
theorem layer1_apply (p : Fin 100000) (q : Fin 256) :
    val_main_v31 (F := Ideal) x0 x1 x2 x3 x4 (ix2 p q)
      = max ((∑ k : Fin 128, Ideal.div (val_main_v13 (F := Ideal) x0 x1 (ix2 p k)) (val_main_v19 (F := Ideal) x1 (ix1 p)) * x2 (ix2 q k))
          + x3 (ix1 q) + ∑ k : Fin 128, x0 (ix2 p k) * x4 (ix2 q k)) (Ideal.ofBits .f32 0x00000000#32) := by
  have el : ∀ k : Fin 128, lidx_main_v24 (ix2 p q) k = ix2 p k := fun k => funext fun a => match a with
    | ⟨0, _⟩ => rfl
    | ⟨1, _⟩ => rfl
  have er : ∀ k : Fin 128, idx_main_v23 (ridx_main_v24 (ix2 p q) k) = ix2 q k := fun k => funext fun a => match a with
    | ⟨0, _⟩ => rfl
    | ⟨1, _⟩ => rfl
  have ed : ∀ k : Fin 128, idx_main_v20 (idx_main_v21 (ix2 p k)) = ix1 p := fun k => funext fun a => match a with
    | ⟨0, _⟩ => rfl
  have eb : idx_main_v25 (idx_main_v26 (ix2 p q)) = ix1 q := funext fun a => match a with
    | ⟨0, _⟩ => rfl
  have el' : ∀ k : Fin 128, lidx_main_v29 (ix2 p q) k = ix2 p k := fun k => funext fun a => match a with
    | ⟨0, _⟩ => rfl
    | ⟨1, _⟩ => rfl
  have er' : ∀ k : Fin 128, idx_main_v28 (ridx_main_v29 (ix2 p q) k) = ix2 q k := fun k => funext fun a => match a with
    | ⟨0, _⟩ => rfl
    | ⟨1, _⟩ => rfl
  rw [val_main_v31_apply, val_main_v30_apply, val_main_v27_apply, val_main_v24_apply, val_main_v26_apply, val_main_v25_apply,
    val_main_v29_apply, val_main_call0_v0_apply, val_main_call0_cst_apply, eb]
  simp only [val_main_v22_apply, val_main_v21_apply, val_main_v20_apply, val_main_v23_apply, val_main_v28_apply, el, er, ed, el', er']
  rfl

/-- Entry (p, q) of the second layer, over the first layer's result `h`. -/
theorem layer2_apply (p : Fin 100000) (q : Fin 256) :
    val_main_v59 (F := Ideal) x0 x1 x2 x3 x4 x5 x6 x7 (ix2 p q)
      = max ((∑ k : Fin 256, Ideal.div (val_main_v41 (F := Ideal) x0 x1 x2 x3 x4 (ix2 p k)) (val_main_v47 (F := Ideal) x1 (ix1 p)) * x5 (ix2 q k))
          + x6 (ix1 q) + ∑ k : Fin 256, val_main_v31 (F := Ideal) x0 x1 x2 x3 x4 (ix2 p k) * x7 (ix2 q k)) (Ideal.ofBits .f32 0x00000000#32) := by
  have el : ∀ k : Fin 256, lidx_main_v52 (ix2 p q) k = ix2 p k := fun k => funext fun a => match a with
    | ⟨0, _⟩ => rfl
    | ⟨1, _⟩ => rfl
  have er : ∀ k : Fin 256, idx_main_v51 (ridx_main_v52 (ix2 p q) k) = ix2 q k := fun k => funext fun a => match a with
    | ⟨0, _⟩ => rfl
    | ⟨1, _⟩ => rfl
  have ed : ∀ k : Fin 256, idx_main_v48 (idx_main_v49 (ix2 p k)) = ix1 p := fun k => funext fun a => match a with
    | ⟨0, _⟩ => rfl
  have eb : idx_main_v53 (idx_main_v54 (ix2 p q)) = ix1 q := funext fun a => match a with
    | ⟨0, _⟩ => rfl
  have el' : ∀ k : Fin 256, lidx_main_v57 (ix2 p q) k = ix2 p k := fun k => funext fun a => match a with
    | ⟨0, _⟩ => rfl
    | ⟨1, _⟩ => rfl
  have er' : ∀ k : Fin 256, idx_main_v56 (ridx_main_v57 (ix2 p q) k) = ix2 q k := fun k => funext fun a => match a with
    | ⟨0, _⟩ => rfl
    | ⟨1, _⟩ => rfl
  rw [val_main_v59_apply, val_main_v58_apply, val_main_v55_apply, val_main_v52_apply, val_main_v54_apply, val_main_v53_apply,
    val_main_v57_apply, val_main_call1_v0_apply, val_main_call1_cst_apply, eb]
  simp only [val_main_v50_apply, val_main_v49_apply, val_main_v48_apply, val_main_v51_apply, val_main_v56_apply, el, er, ed, el', er']
  rfl

end Cert.Sage.RefRead

end
-- ==== Proof.InvColumn.lean ====
/-
  The reciprocal count column read at a node.

  The kernel program computes one over the clamped neighbour count as a vector over the nodes and views it as a
  column; at (p, 0) the column holds one over the count of node p.
-/
import proofs.«133361_j22548578304459_2_alg».proof.Proof.Gen.KernelIdeal
import proofs.«133361_j22548578304459_2_alg».proof.Proof.LibKeepdims
import Idealize.ShloMosaic.Lib.IdealHost
import Idealize.ShloMosaic.Lib.Pipeline.Value

set_option maxRecDepth 16384

noncomputable section

namespace Cert.Sage.InvColumn

open Cert.KernelIdeal Cert.KernelIdeal.Gen
open Idealize.ShloMosaic Idealize.ShloMosaic.ValueIdx

/-- The splat of the pattern of one is one at every node. -/
theorem ones_apply (p : Fin 100000) :
    broadcastInDim S100000 ![] bcast_S_S100000 (constant (F := Ideal) S_ .f32 0x3F800000#32) (ix1 p) = (1 : EReal) := by
  rw [broadcastInDim_apply _ bcast_S_S100000 _ (ix1 p) (fun a => a.elim0) (fun a => a.elim0)]
  exact Ideal.ofBits_one_f32

/-- Entry (p, 0) of the column is one over the count of node p. -/
theorem inv_apply (d : S100000.Idx → EReal) (p : Fin 100000) :
    shapeCast S100000x1 (Host.divf (F := Ideal) (broadcastInDim S100000 ![] bcast_S_S100000 (constant (F := Ideal) S_ .f32 0x3F800000#32)) d)
      shapeCasts_S100000_S100000x1 (ix2 p (0 : Fin 1)) = Ideal.div 1 (d (ix1 p)) := by
  rw [Cert.LibKeepdims.shapeCast_a_a1_apply]
  show FloatOps.hostDivf (broadcastInDim S100000 ![] bcast_S_S100000 (constant (F := Ideal) S_ .f32 0x3F800000#32) (ix1 p)) (d (ix1 p)) = _
  rw [ones_apply, Ideal.hostDivf_def]

end Cert.Sage.InvColumn

end
-- ==== Proof.KernelLayer0.lean ====
/-
  The first launch's output array is the reference's first layer.

  The launch leaves in its output array the layer, in the kernel's arrangement, of the arrays it finds: the summed
  neighbour features, the node features, the transposed weights, the bias row and the column of reciprocal
  clamped counts. Read entry by entry — a transposed matrix at (k, q) is the matrix at (q, k), the bias row at
  (0, q) the bias at q, the column at (p, 0) one over the count of node p — this is the reference's layer, by the
  law that moves the reciprocal of a count at least one into the sum. What the second stretch of host operations
  finds in that array is therefore the reference's first layer.
-/
import proofs.«133361_j22548578304459_2_alg».proof.Proof.KernelHost0
import proofs.«133361_j22548578304459_2_alg».proof.Proof.Layer0
import proofs.«133361_j22548578304459_2_alg».proof.Proof.LayerLaw
import proofs.«133361_j22548578304459_2_alg».proof.Proof.RefRead
import proofs.«133361_j22548578304459_2_alg».proof.Proof.InvColumn
import Idealize.ShloMosaic.Lib.ValueLayout
import Idealize.ShloMosaic.Lib.IdealHost

set_option maxRecDepth 16384

noncomputable section

namespace Cert.Sage.KernelLayer0

open Cert.KernelIdeal Cert.KernelIdeal.Gen
open Cert.ReferenceIdeal.Read
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

open Cert.Sage Cert.Sage.KernelHost0

/-- Reading a transposed weight matrix at (k, q) reads the matrix at (q, k). -/
theorem idx_wl (k : Fin 128) (q : Fin 256) : idx_main_v23 (ix2 k q) = ix2 q k := funext fun a => match a with
  | ⟨0, _⟩ => rfl
  | ⟨1, _⟩ => rfl
theorem idx_wr (k : Fin 128) (q : Fin 256) : idx_main_v28 (ix2 k q) = ix2 q k := funext fun a => match a with
  | ⟨0, _⟩ => rfl
  | ⟨1, _⟩ => rfl

/-- The layer the launch computes from the arrays it finds is the reference's layer of the arguments. -/
theorem layer1_value (c : Dev nD) : Cert.Sage.Layer0.G (V1 m ρ) c = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨p, q, rfl⟩ : ∃ (p : Fin 100000) (q : Fin 256), i = ix2 p q := ⟨i 0, i 1, eq_ix2 i⟩
  rw [Cert.Sage.RefRead.layer1_apply]
  show rowLayer (N := 100000) (D := 128) (H := 256) (V1 m ρ c main_v22) (V1 m ρ c main_arg0) (V1 m ρ c main_v23) (V1 m ρ c main_v24)
    (V1 m ρ c main_v25) (V1 m ρ c main_v12) p q = _
  rw [V1_agg, V1_x, V1_wl, V1_wr, V1_b, V1_inv]
  refine rowLayer_eq_ref _ _ _ _ _ _ (wl := (m ((c : Thread nD τ).loc main_arg2))) (wr := (m ((c : Thread nD τ).loc main_arg4))) (b := (m ((c : Thread nD τ).loc main_arg3))) (d := val_main_v19 (F := Ideal) (m ((c : Thread nD τ).loc main_arg1))) p q
    (fun k => ?_) (fun k => ?_) ?_ ?_ (Cert.Sage.RefRead.one_le_count _ p)
  · exact (val_main_v23_apply _ _).trans (congrArg _ (idx_wl k q))
  · exact (val_main_v28_apply _ _).trans (congrArg _ (idx_wr k q))
  · exact shapeCast_a_1a_apply _ _ 0 q
  · exact Cert.Sage.InvColumn.inv_apply _ p

/-- After the first launch its output array holds the reference's first layer. -/
theorem W2_h (c : Dev nD) : (W2 m ρ c (Proc.devRef .tc main_v26) : S100000x256.Idx → EReal)
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W2_arr m ρ c 6).trans ((Cert.Sage.Layer0.final (V1 m ρ) c).trans (layer1_value m ρ c))

end Cert.Sage.KernelLayer0

end
-- ==== Proof.KernelHost1.lean ====
/-
  What the second launch finds in its operands' arrays.

  The first launch writes its output array only; the edge list's two halves, the reciprocal count column and the
  second layer's arguments are as the first stretch of host operations left them. The second stretch gathers the
  source rows of the first launch's output and sums them into their destinations' rows, transposes the second
  layer's weights and lays its bias out as a row: with the first launch's output the reference's first layer,
  the summed features are the reference's own second aggregation.
-/
import proofs.«133361_j22548578304459_2_alg».proof.Proof.KernelLayer0

set_option maxRecDepth 16384

noncomputable section

namespace Cert.Sage.KernelHost1

open Cert.KernelIdeal Cert.KernelIdeal.Gen
open Cert.ReferenceIdeal.Read
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

open Cert.Sage Cert.Sage.KernelHost0 Cert.Sage.KernelLayer0

/-- The buffers the first launch does not write keep their contents. -/
theorem W2_src (c : Dev nD) : (W2 m ρ c (Proc.devRef .tc main_v1) : S640000.Idx → BitVec 32) = val_main_v1 (F := Ideal) (m ((c : Thread nD τ).loc main_arg1)) :=
  (W2_of_ne m ρ c main_v1 (by decide)).trans (V1_src m ρ c)
theorem W2_dst (c : Dev nD) : (W2 m ρ c (Proc.devRef .tc main_v3) : S640000.Idx → BitVec 32) = val_main_v3 (F := Ideal) (m ((c : Thread nD τ).loc main_arg1)) :=
  (W2_of_ne m ρ c main_v3 (by decide)).trans (V1_dst m ρ c)
theorem W2_arg5 (c : Dev nD) : W2 m ρ c (Proc.devRef .tc main_arg5) = (m ((c : Thread nD τ).loc main_arg5)) :=
  (W2_of_ne m ρ c main_arg5 (by decide)).trans (V1_arg5 m ρ c)
theorem W2_arg6 (c : Dev nD) : W2 m ρ c (Proc.devRef .tc main_arg6) = (m ((c : Thread nD τ).loc main_arg6)) :=
  (W2_of_ne m ρ c main_arg6 (by decide)).trans (V1_arg6 m ρ c)
theorem W2_arg7 (c : Dev nD) : W2 m ρ c (Proc.devRef .tc main_arg7) = (m ((c : Thread nD τ).loc main_arg7)) :=
  (W2_of_ne m ρ c main_arg7 (by decide)).trans (V1_arg7 m ρ c)
/-- The reciprocal count column is an input of the first launch: it is read, never written. -/
theorem W2_inv (c : Dev nD) : (W2 m ρ c (Proc.devRef .tc main_v12) : S100000x1.Idx → EReal)
    = shapeCast S100000x1 (Host.divf (F := Ideal) (broadcastInDim S100000 ![] bcast_S_S100000 (constant (F := Ideal) S_ .f32 0x3F800000#32))
        (val_main_v19 (F := Ideal) (m ((c : Thread nD τ).loc main_arg1)))) shapeCasts_S100000_S100000x1 :=
  (W2_arr m ρ c 5).trans (((dat0 (V1 m ρ) c).arrAt_in 5 rfl _).trans ((A_eq0 (V1 m ρ) c 5).trans (V1_inv m ρ c)))

set_option maxHeartbeats 4000000 in
/-- The first layer's features summed over each node's incoming edges. -/
theorem V3_agg (c : Dev nD) : (V3 m ρ c main_v36 : S100000x256.Idx → EReal)
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v36) = _
  after_results_simp
  rw [W2_h, W2_src, W2_dst] <;> rfl

set_option maxHeartbeats 4000000 in
/-- The node features of the second layer are the first launch's output. -/
theorem V3_x (c : Dev nD) : (V3 m ρ c main_v26 : S100000x256.Idx → EReal)
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v26) = _
  after_results_simp
  exact W2_h m ρ c

set_option maxHeartbeats 4000000 in
/-- The transposed left weights of the second layer. -/
theorem V3_wl (c : Dev nD) : (V3 m ρ c main_v37 : S256x256.Idx → EReal) = val_main_v51 (F := Ideal) (m ((c : Thread nD τ).loc main_arg5)) := by
  show StableHlo.after hostOps1 (W2 m ρ c) (Proc.devRef .tc main_v37) = _
  after_results_simp
  rw [W2_arg5] <;> rfl

set_option maxHeartbeats 4000000 in
/-- The transposed right weights of the second layer. -/
theorem V3_wr (c : Dev nD) : (V3 m ρ c main_v38 : S256x256.Idx → EReal) = val_main_v56 (F := Ideal) (m ((c : Thread nD τ).loc main_arg7)) := by
  show StableHlo.after hostOps1 (W2 m ρ c) (Proc.devRef .tc main_v38) = _
  after_results_simp
  rw [W2_arg7] <;> rfl

set_option maxHeartbeats 4000000 in
/-- The second layer's bias laid out as a row. -/
theorem V3_b (c : Dev nD) : (V3 m ρ c main_v39 : S1x256.Idx → EReal)
    = shapeCast S1x256 ((m ((c : Thread nD τ).loc main_arg6)) : S256.Idx → EReal) shapeCasts_S256_S1x256 := by
  show StableHlo.after hostOps1 (W2 m ρ c) (Proc.devRef .tc main_v39) = _
  after_results_simp
  rw [W2_arg6] <;> rfl

set_option maxHeartbeats 4000000 in
/-- The reciprocal count column, as the first launch found it. -/
theorem V3_inv (c : Dev nD) : (V3 m ρ c main_v12 : S100000x1.Idx → EReal)
    = shapeCast S100000x1 (Host.divf (F := Ideal) (broadcastInDim S100000 ![] bcast_S_S100000 (constant (F := Ideal) S_ .f32 0x3F800000#32))
        (val_main_v19 (F := Ideal) (m ((c : Thread nD τ).loc main_arg1)))) shapeCasts_S100000_S100000x1 := by
  show StableHlo.after hostOps1 (W2 m ρ c) (Proc.devRef .tc main_v12) = _
  after_results_simp
  exact W2_inv m ρ c

end Cert.Sage.KernelHost1

end
-- ==== Proof.Block1.lean ====
/-
  One row block of the second layer: what the kernel body computes from the blocks it is handed, entry by entry.

  The body receives a block of 2000 rows of the summed neighbour features `a` and of the node features `x`
  (each 2000 × 256), the two weight matrices `wl`, `wr` (256 × 256, already transposed), the bias as one row
  `b` (1 × 256) and the reciprocal neighbour counts as one column `s` (2000 × 1). Over the extended reals the
  roundings to the narrower format are the identity and each matrix product into the zero accumulator is the
  plain sum over the contracted axis, so entry (r, q) of the stored block is
  `max (s(r,0) · ∑ₖ a(r,k) wl(k,q) + ∑ₖ x(r,k) wr(k,q) + b(0,q)) 0`.
-/
import proofs.«133361_j22548578304459_2_alg».proof.Proof.Gen.KernelIdeal.Skeleton
import proofs.«133361_j22548578304459_2_alg».proof.Proof.LibMatmul
import proofs.«133361_j22548578304459_2_alg».proof.Proof.LibKeepdims
import proofs.«133361_j22548578304459_2_alg».proof.Proof.LayerSpec
import Idealize.ShloMosaic.Lib.ValueLayout
import Idealize.ShloMosaic.Lib.Pipeline.Value
import Idealize.ShloMosaic.PureOps.Ideal.Laws

noncomputable section

namespace Cert.Sage.Block1

open Idealize.ShloMosaic Idealize.ShloMosaic.ValueIdx Cert.KernelIdeal Cert.KernelIdeal.Gen

/-- The block product's left operand is read at (row, contraction index) … -/
theorem lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl
theorem lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
/-- … and its right operand at (contraction index, column). -/
theorem rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- The block's matrix product at entry (r, q) is the sum over the 256 contracted columns. -/
theorem mm (l : FVec Ideal S2000x256 .bf16) (w : FVec Ideal S256x256 .bf16) (r : Fin 2000) (q : Fin 256) :
    matmul dot_S2000x256_S256x256_S2000x256_1_0_0_1_n_n none l w (constant (F := Ideal) S2000x256 .f32 0x00000000#32) (ix2 r q)
      = ∑ k : Fin 256, l (ix2 r k) * w (ix2 k q) :=
  Cert.LibMatmul.matmul_zero_ix2 dot_S2000x256_S256x256_S2000x256_1_0_0_1_n_n rfl rfl lhs_0 lhs_1 rhs_0 rhs_1 none l w r q

/-- Entry (r, q) of the stored block. -/
theorem pay_apply (a x : Vec Ideal S2000x256 .f32) (wl wr : Vec Ideal S256x256 .f32) (s : Vec Ideal S2000x1 .f32)
    (b : Vec Ideal S1x256 .f32) (r : Fin 2000) (q : Fin 256) :
    k1_pay1 (F := Ideal) a x wl wr s b (ix2 r q)
      = max (s (ix2 r (0 : Fin 1)) * (∑ k : Fin 256, a (ix2 r k) * wl (ix2 k q))
          + (∑ k : Fin 256, x (ix2 r k) * wr (ix2 k q)) + b (ix2 (0 : Fin 1) q)) (Ideal.ofBits .f32 0x00000000#32) := by
  unfold k1_pay1
  simp only [shapeCast_self]
  show max (broadcastTo S2000x256 s broadcasts_S2000x1_S2000x256 (ix2 r q)
        * matmul dot_S2000x256_S256x256_S2000x256_1_0_0_1_n_n none (truncf .bf16 a bitsLt_bf16_f32) (truncf .bf16 wl bitsLt_bf16_f32) (constant (F := Ideal) S2000x256 .f32 0x00000000#32) (ix2 r q)
      + matmul dot_S2000x256_S256x256_S2000x256_1_0_0_1_n_n none (truncf .bf16 x bitsLt_bf16_f32) (truncf .bf16 wr bitsLt_bf16_f32) (constant (F := Ideal) S2000x256 .f32 0x00000000#32) (ix2 r q)
      + broadcastTo S2000x256 b broadcasts_S1x256_S2000x256 (ix2 r q)) (Ideal.ofBits .f32 0x00000000#32) = _
  rw [mm, mm, Cert.LibKeepdims.broadcastTo_a1_ab_apply, broadcastTo_1b_ab_apply]
  rfl

/-- The stored block is the layer of the blocks the body was handed. -/
theorem pay_eq_rowLayer (a x : Vec Ideal S2000x256 .f32) (wl wr : Vec Ideal S256x256 .f32) (s : Vec Ideal S2000x1 .f32)
    (b : Vec Ideal S1x256 .f32) (r : Fin 2000) (q : Fin 256) :
    k1_pay1 (F := Ideal) a x wl wr s b (ix2 r q) = rowLayer (N := 2000) (D := 256) (H := 256) a x wl wr b s r q :=
  pay_apply a x wl wr s b r q

end Cert.Sage.Block1

end
-- ==== Proof.Layer1.lean ====
/-
  The second launch's output array as one function of the arrays the launch finds.

  The grid has 50 points; point `t` is handed rows `2000 t … 2000 t + 1999` of the summed neighbour features, of
  the node features and of the scale column, and the whole of the two weight matrices and of the bias row, and
  writes back rows `2000 t … 2000 t + 1999` of the output. A layer's entry depends only on its own row of the
  row-blocked operands, so what point `t` writes back is block `t` of the layer of the whole arrays; the 50
  blocks tile the 100000 rows, so the output array ends as that layer.
-/
import proofs.«133361_j22548578304459_2_alg».proof.Proof.Gen.KernelIdeal.Frame
import proofs.«133361_j22548578304459_2_alg».proof.Proof.Block1
import proofs.«133361_j22548578304459_2_alg».proof.Proof.LayerSpec
import Idealize.ShloMosaic.Lib.Pipeline.Value

set_option maxRecDepth 16384

noncomputable section

namespace Cert.Sage.Layer1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the launch finds, at every node and output feature. -/
def G (c : Dev nD) : S100000x256.Idx → EReal := fun i =>
  rowLayer (N := 100000) (D := 256) (H := 256) (V c main_v36) (V c main_v26) (V c main_v37) (V c main_v38)
    (V c main_v39) (V c main_v12) (i 0) (i 1)

/-- The printed index maps over the grid: the row-blocked windows sit at block row `t`, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row `r` of point `t`'s block of the summed neighbour features is row `2000 t + r` of the array. -/
theorem blk_agg (c : Dev nD) (t : Fin cfg1.N) (r : Fin 2000) (k : Fin 256) (p : Fin 100000) (hp : p.val = t.val * 2000 + r.val) :
    (iblk1 V c 0 t : Vec Ideal S2000x256 .f32) (ix2 r k) = (V c main_v36 : S100000x256.Idx → EReal) (ix2 p k) := by
  obtain ⟨e0, e1, -⟩ := idx_facts t
  unfold iblk1
  rw [View.read_apply]
  show (V c main_v36 : S100000x256.Idx → EReal) (((cfg1.win 0).blk t).view.emb (ix2 r k)) = _
  refine congrArg _ (funext fun a => Fin.ext ?_)
  match a with
  | ⟨0, _⟩ => show win1_0.index t (0 : Fin 2) * 2000 + 1 * r.val = p.val; rw [e0, hp]; omega
  | ⟨1, _⟩ => show win1_0.index t (1 : Fin 2) * 256 + 1 * k.val = k.val; rw [e1]; omega

/-- The same for the node features … -/
theorem blk_x (c : Dev nD) (t : Fin cfg1.N) (r : Fin 2000) (k : Fin 256) (p : Fin 100000) (hp : p.val = t.val * 2000 + r.val) :
    (iblk1 V c 1 t : Vec Ideal S2000x256 .f32) (ix2 r k) = (V c main_v26 : S100000x256.Idx → EReal) (ix2 p k) := by
  obtain ⟨-, -, e0, e1, -⟩ := idx_facts t
  unfold iblk1
  rw [View.read_apply]
  show (V c main_v26 : S100000x256.Idx → EReal) (((cfg1.win 1).blk t).view.emb (ix2 r k)) = _
  refine congrArg _ (funext fun a => Fin.ext ?_)
  match a with
  | ⟨0, _⟩ => show win1_1.index t (0 : Fin 2) * 2000 + 1 * r.val = p.val; rw [e0, hp]; omega
  | ⟨1, _⟩ => show win1_1.index t (1 : Fin 2) * 256 + 1 * k.val = k.val; rw [e1]; omega

/-- … and for the scale column. -/
theorem blk_s (c : Dev nD) (t : Fin cfg1.N) (r : Fin 2000) (p : Fin 100000) (hp : p.val = t.val * 2000 + r.val) :
    (iblk1 V c 5 t : Vec Ideal S2000x1 .f32) (ix2 r (0 : Fin 1)) = (V c main_v12 : S100000x1.Idx → EReal) (ix2 p (0 : Fin 1)) := by
  obtain ⟨-, -, -, -, -, -, -, -, -, -, e0, e1, -⟩ := idx_facts t
  unfold iblk1
  rw [View.read_apply]
  show (V c main_v12 : S100000x1.Idx → EReal) (((cfg1.win 5).blk t).view.emb (ix2 r (0 : Fin 1))) = _
  refine congrArg _ (funext fun a => Fin.ext ?_)
  match a with
  | ⟨0, _⟩ => show win1_5.index t (0 : Fin 2) * 2000 + 1 * r.val = p.val; rw [e0, hp]; omega
  | ⟨1, _⟩ => show win1_5.index t (1 : Fin 2) * 1 + 1 * 0 = 0; rw [e1]

/-- Every point is handed the whole left weight matrix, … -/
theorem blk_wl (c : Dev nD) (t : Fin cfg1.N) : (iblk1 V c 2 t : Vec Ideal S256x256 .f32) = (V c main_v37 : S256x256.Idx → EReal) := by
  obtain ⟨-, -, -, -, e0, e1, -⟩ := idx_facts t
  unfold iblk1
  funext j
  rw [View.read_apply]
  show (V c main_v37 : S256x256.Idx → EReal) (((cfg1.win 2).blk t).view.emb j) = (V c main_v37 : S256x256.Idx → EReal) j
  refine congrArg _ (funext fun a => Fin.ext ?_)
  match a with
  | ⟨0, _⟩ => show win1_2.index t (0 : Fin 2) * 256 + 1 * (j 0).val = (j 0).val; rw [e0]; omega
  | ⟨1, _⟩ => show win1_2.index t (1 : Fin 2) * 256 + 1 * (j 1).val = (j 1).val; rw [e1]; omega

/-- … the whole right weight matrix … -/
theorem blk_wr (c : Dev nD) (t : Fin cfg1.N) : (iblk1 V c 3 t : Vec Ideal S256x256 .f32) = (V c main_v38 : S256x256.Idx → EReal) := by
  obtain ⟨-, -, -, -, -, -, e0, e1, -⟩ := idx_facts t
  unfold iblk1
  funext j
  rw [View.read_apply]
  show (V c main_v38 : S256x256.Idx → EReal) (((cfg1.win 3).blk t).view.emb j) = (V c main_v38 : S256x256.Idx → EReal) j
  refine congrArg _ (funext fun a => Fin.ext ?_)
  match a with
  | ⟨0, _⟩ => show win1_3.index t (0 : Fin 2) * 256 + 1 * (j 0).val = (j 0).val; rw [e0]; omega
  | ⟨1, _⟩ => show win1_3.index t (1 : Fin 2) * 256 + 1 * (j 1).val = (j 1).val; rw [e1]; omega

/-- … and the whole bias row. -/
theorem blk_b (c : Dev nD) (t : Fin cfg1.N) : (iblk1 V c 4 t : Vec Ideal S1x256 .f32) = (V c main_v39 : S1x256.Idx → EReal) := by
  obtain ⟨-, -, -, -, -, -, -, -, e0, e1, -⟩ := idx_facts t
  unfold iblk1
  funext j
  rw [View.read_apply]
  show (V c main_v39 : S1x256.Idx → EReal) (((cfg1.win 4).blk t).view.emb j) = (V c main_v39 : S1x256.Idx → EReal) j
  refine congrArg _ (funext fun a => Fin.ext ?_)
  match a with
  | ⟨0, _⟩ => show win1_4.index t (0 : Fin 2) * 1 + 1 * (j 0).val = (j 0).val; rw [e0]; omega
  | ⟨1, _⟩ => show win1_4.index t (1 : Fin 2) * 256 + 1 * (j 1).val = (j 1).val; rw [e1]; omega

/-- What point `t` writes back is block `t` of the layer of the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x256) hz, View.ld_unit_zero (S := S256x256) hz,
    View.ld_unit_zero (S := S2000x1) hz, View.ld_unit_zero (S := S1x256) hz]
  obtain ⟨-, -, -, -, -, -, -, -, -, -, -, -, e0, e1⟩ := idx_facts t
  have hN : cfg1.N = 50 := N_1
  funext j
  have hj0 : (j 0).val < 2000 := (j 0).isLt
  have hj1 : (j 1).val < 256 := (j 1).isLt
  have ht : t.val < 50 := hN ▸ t.isLt
  have hj : (j : S2000x256.Idx) = ix2 (⟨(j 0).val, hj0⟩ : Fin 2000) (⟨(j 1).val, hj1⟩ : Fin 256) :=
    funext fun a => match a with
      | ⟨0, _⟩ => rfl
      | ⟨1, _⟩ => rfl
  have he : (((cfg1.win 6).blk t).view.emb j : S100000x256.Idx)
      = ix2 (⟨t.val * 2000 + (j 0).val, by omega⟩ : Fin 100000) (⟨(j 1).val, hj1⟩ : Fin 256) :=
    funext fun a => Fin.ext (by
      match a with
      | ⟨0, _⟩ => show win1_6.index t (0 : Fin 2) * 2000 + 1 * (j 0).val = t.val * 2000 + (j 0).val; rw [e0]; omega
      | ⟨1, _⟩ => show win1_6.index t (1 : Fin 2) * 256 + 1 * (j 1).val = (j 1).val; rw [e1]; omega)
  show k1_pay1 (F := Ideal) (iblk1 V c 0 t) (iblk1 V c 1 t) (iblk1 V c 2 t) (iblk1 V c 3 t) (iblk1 V c 5 t) (iblk1 V c 4 t) (j : S2000x256.Idx)
    = G V c (((cfg1.win 6).blk t).view.emb j)
  refine (congrArg (k1_pay1 (F := Ideal) (iblk1 V c 0 t) (iblk1 V c 1 t) (iblk1 V c 2 t) (iblk1 V c 3 t) (iblk1 V c 5 t) (iblk1 V c 4 t)) hj).trans
    (Eq.trans ?_ (congrArg (G V c) he).symm)
  refine (Cert.Sage.Block1.pay_eq_rowLayer _ _ _ _ _ _ _ _).trans ?_
  rw [blk_wl, blk_wr, blk_b]
  exact rowLayer_congr _ _ _ _ _ _ _ _ _ _ _ _
    (fun k => blk_agg V c t _ k _ rfl) (fun k => blk_x V c t _ k _ rfl) (blk_s V c t _ _ rfl)

/-- An index of the output array is in point `t`'s block iff each coordinate is in the block's range. -/
theorem mem_blk (t : Fin cfg1.N) (i : S100000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v40).slice (win1_6.rect t)).set ↔ _
  rw [View.set_slice_whole, Rect.mem_set_unit]
  exact Iff.rfl

/-- Row `p` of the output lies in the block of point `p / 2000`. -/
theorem cover (i : S100000x256.Idx) : ∃ t : Fin cfg1.N, (cfg1.win 6).flush t = true ∧ i ∈ ((cfg1.win 6).blk t).view.set := by
  have hN : cfg1.N = 50 := N_1
  have hi0 : (i 0).val < 100000 := (i 0).isLt
  have hi1 : (i 1).val < 256 := (i 1).isLt
  have ht : (i 0).val / 2000 < cfg1.N := by rw [hN]; omega
  obtain ⟨-, -, -, -, -, -, -, -, -, -, -, -, e0, e1⟩ := idx_facts ⟨(i 0).val / 2000, ht⟩
  refine ⟨⟨(i 0).val / 2000, ht⟩, flush1_6 _, ?_⟩
  rw [mem_blk]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 256 ≤ (i 1).val ∧ (i 1).val < win1_6.index ⟨(i 0).val / 2000, ht⟩ (1 : Fin 2) * 256 + 256
    rw [e1]; omega

/-- The output array after the launch is the layer of the arrays the launch found. -/
theorem final (c : Dev nD) : (dat1 V c).arrAt 6 cfg1.N = G V c :=
  (dat1 V c).arrAt_eq_of_cover 6 (G V c) (fun t _ => flushed_eq V c t) (cover)

end Cert.Sage.Layer1

end
-- ==== Proof.KernelLayer1.lean ====
/-
  The kernel program's result is the reference's second layer.

  The second launch leaves in its output array the layer, in the kernel's arrangement, of the arrays it finds;
  entry by entry this is the reference's second layer of the arguments, by the same reading of the transposes, the
  bias row and the reciprocal count column as for the first layer and the same law. The program returns that
  array.
-/
import proofs.«133361_j22548578304459_2_alg».proof.Proof.KernelHost1
import proofs.«133361_j22548578304459_2_alg».proof.Proof.Layer1
import proofs.«133361_j22548578304459_2_alg».proof.Proof.InvColumn

set_option maxRecDepth 16384

noncomputable section

namespace Cert.Sage.KernelLayer1

open Cert.KernelIdeal Cert.KernelIdeal.Gen
open Cert.ReferenceIdeal.Read
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

open Cert.Sage Cert.Sage.KernelHost1

/-- Reading a transposed weight matrix at (k, q) reads the matrix at (q, k). -/
theorem idx_wl (k : Fin 256) (q : Fin 256) : idx_main_v51 (ix2 k q) = ix2 q k := funext fun a => match a with
  | ⟨0, _⟩ => rfl
  | ⟨1, _⟩ => rfl
theorem idx_wr (k : Fin 256) (q : Fin 256) : idx_main_v56 (ix2 k q) = ix2 q k := funext fun a => match a with
  | ⟨0, _⟩ => rfl
  | ⟨1, _⟩ => rfl

/-- The layer the launch computes from the arrays it finds is the reference's layer of the arguments. -/
theorem layer2_value (c : Dev nD) : Cert.Sage.Layer1.G (V3 m ρ) c = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨p, q, rfl⟩ : ∃ (p : Fin 100000) (q : Fin 256), i = ix2 p q := ⟨i 0, i 1, eq_ix2 i⟩
  rw [Cert.Sage.RefRead.layer2_apply]
  show rowLayer (N := 100000) (D := 256) (H := 256) (V3 m ρ c main_v36) (V3 m ρ c main_v26) (V3 m ρ c main_v37) (V3 m ρ c main_v38)
    (V3 m ρ c main_v39) (V3 m ρ c main_v12) p q = _
  rw [V3_agg, V3_x, V3_wl, V3_wr, V3_b, V3_inv]
  refine rowLayer_eq_ref _ _ _ _ _ _ (wl := (m ((c : Thread nD τ).loc main_arg5))) (wr := (m ((c : Thread nD τ).loc main_arg7))) (b := (m ((c : Thread nD τ).loc main_arg6))) (d := val_main_v47 (F := Ideal) (m ((c : Thread nD τ).loc main_arg1))) p q
    (fun k => ?_) (fun k => ?_) ?_ ?_ (by rw [Cert.Sage.RefRead.count2_eq]; exact Cert.Sage.RefRead.one_le_count _ p)
  · exact (val_main_v51_apply _ _).trans (congrArg _ (idx_wl k q))
  · exact (val_main_v56_apply _ _).trans (congrArg _ (idx_wr k q))
  · exact shapeCast_a_1a_apply _ _ 0 q
  · rw [Cert.Sage.RefRead.count2_eq]; exact Cert.Sage.InvColumn.inv_apply _ p

/-- The contents the run ends with at the result buffer are the reference's result term of the arguments. -/
theorem result_eq (c : Dev nD) : (W4 m ρ c (Proc.devRef .tc main_v40) : S100000x256.Idx → EReal)
    = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 6).trans ((Cert.Sage.Layer1.final (V3 m ρ) c).trans (layer2_value m ρ c))

end Cert.Sage.KernelLayer1

end
-- ==== Proof.lean ====
/-
  A two-layer mean-aggregation graph network: the kernel program against its reference.

  Each layer sums, for every node, the features of the sources of its incoming edges, divides the sum by the
  number of those edges clamped at one, multiplies by a weight matrix, adds a bias and the node's own features
  times a second weight matrix, and clamps the result at zero from below. The reference divides before the
  matrix product; the kernel program multiplies the undivided sums by the transposed weights in row blocks of
  2000 nodes and scales the product by the reciprocal count afterwards. On the extended reals the two agree
  without any assumption on the inputs: the clamped count is at least one, its reciprocal lies in [0, 1], and
  such a factor moves into any sum of extended reals. The gather of source rows and the scatter-add into
  destination rows are the same host operations in both programs and are never opened.

  The three frames are the generated ones (the reference's is its generated run with the result dropped); the
  idealized kernel is the kernel's own text read over the extended reals, so nothing is owed for it.
-/
import proofs.«133361_j22548578304459_2_alg».proof.Defs
import proofs.«133361_j22548578304459_2_alg».proof.Proof.Gen.Kernel
import proofs.«133361_j22548578304459_2_alg».proof.Proof.Gen.Kernel.Frame
import proofs.«133361_j22548578304459_2_alg».proof.Proof.Gen.KernelIdeal
import proofs.«133361_j22548578304459_2_alg».proof.Proof.Gen.KernelIdeal.Frame
import proofs.«133361_j22548578304459_2_alg».proof.Proof.Gen.ReferenceIdeal
import proofs.«133361_j22548578304459_2_alg».proof.Proof.Gen.Pre_finite_inputs
import proofs.«133361_j22548578304459_2_alg».proof.Proof.Gen.ReferenceIdeal.Run
import proofs.«133361_j22548578304459_2_alg».proof.Proof.Gen.ReferenceIdeal.Read
import proofs.«133361_j22548578304459_2_alg».proof.Proof.KernelRun
import proofs.«133361_j22548578304459_2_alg».proof.Proof.KernelLayer1
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite to account for. -/
theorem preserves : Cert.preserves_Kernel_KernelIdeal := trivial

/-- Both programs end with the reference's second layer of the arguments in their result arrays. -/
theorem algebraic : Cert.algebraic_KernelIdeal_ReferenceIdeal := by
  intro m ρ m' ρ' _ hagree
  refine ⟨fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Sage.KernelLayer1.result_eq m ρ c), (h c).2⟩)
      (Cert.Sage.KernelRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
